-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) (main_arg2 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S2x1x1 : Shape := ⟨3, ![2, 1, 1]⟩
abbrev S256x4096 : Shape := ⟨2, ![256, 4096]⟩
abbrev S256x1 : Shape := ⟨2, ![256, 1]⟩
abbrev S1x1x1 : Shape := ⟨3, ![1, 1, 1]⟩
abbrev S256 : Shape := ⟨1, ![256]⟩
abbrev S1 : Shape := ⟨1, ![1]⟩
abbrev S1x1 : Shape := ⟨2, ![1, 1]⟩

abbrev nBuf : Space → Nat
  | .hbm => 16
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S2x1x1, .f32⟩
  | .hbm, ⟨14, _⟩ => ⟨S_, .f32⟩
  | .hbm, ⟨15, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384 : S_.BroadcastsInDim S16384 (![] : Fin 0 → Fin S16384.rank)
  shapeCasts_S16384_S16384x1 : S16384.ShapeCasts S16384x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x1_S1 : S256x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S16384 : Shape := ⟨1, ![16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384, .i32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_call1_cst : Ref sig .tc := ⟨.hbm, 17, rfl⟩
abbrev main_call1_v0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Pieces.lean ====
/-
  What one grid point leaves in the 1×1×1 accumulator and, at a half's last point, in the output block.

  The body of the kernel first (only at the first point of a half) stores the zero block into the accumulator, then
  loads the three input blocks and the accumulator, stores back the accumulator plus the tile's sum, and last (only
  at the last point of a half) copies the accumulator into the output block. Every store and load goes through the
  whole 1×1×1 buffer, so what a point leaves is its last store's value with each load read where the stores before it
  left it: the step applied to the zero block at a first point, the step applied to what the point before left at
  every other point, and the same value in the output block at a last point.
-/
import proofs.«131742_j34213709479937_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a half's first point the accumulator is first set to the zero block and then stepped: what it holds afterwards
    is the step applied to the zero block. -/
theorem scratch_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S1x1x1 .f32) (harg5 : arg5.IsWhole) (arg6 : Memref sig .tc .vmem S1x1x1 .f32) (harg6 : arg6.IsWhole) (hc0 : cond0_0 i) (hc1 : ¬cond0_1 i)
    (x0 : Vec F S256x4096 .f32) (x1 : Vec F S256x4096 .f32) (x2 : Vec F S256x1 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg6.read_unread,
    View.ld_unit_zero (S := S256x4096) hz2, View.ld_unit_zero (S := S256x1) hz2, View.ld_unit_zero (S := S1x1x1) hz3]

/-- At a point that is neither first nor last of its half the accumulator, holding `xs0`, is stepped. -/
theorem scratch_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : ¬cond0_1 i)
    (x0 : Vec F S256x4096 .f32) (x1 : Vec F S256x4096 .f32) (x2 : Vec F S256x1 .f32) (xs0 : Vec F S1x1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S256x4096) hz2, View.ld_unit_zero (S := S256x1) hz2, View.ld_unit_zero (S := S1x1x1) hz3]

/-- At a half's last point the accumulator, holding `xs0`, is stepped as at any other point; -/
theorem scratch_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S256x4096 .f32) (x1 : Vec F S256x4096 .f32) (x2 : Vec F S256x1 .f32) (xs0 : Vec F S1x1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S256x4096) hz2, View.ld_unit_zero (S := S256x1) hz2, View.ld_unit_zero (S := S1x1x1) hz3]

/-- and the output block receives the stepped accumulator read back. -/
theorem out_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S256x1 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S256x4096 .f32) (x1 : Vec F S256x4096 .f32) (x2 : Vec F S256x1 .f32) (xs0 : Vec F S1x1x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg6.read_unread,
    View.ld_unit_zero (S := S256x4096) hz2, View.ld_unit_zero (S := S256x1) hz2, View.ld_unit_zero (S := S1x1x1) hz3]

end Cert.KernelIdeal.Pieces

end
-- ==== Proof.Accum.lean ====
/-
  The accumulator after each grid point is a fold along the point's half.

  The 64 grid points run through two halves of 32 points. At a half's first point the 1×1×1 accumulator is reset and
  stepped, at every later point it is stepped from what the point before left; so after point `32·q + j` it holds
  the reset of point `32·q` stepped through points `32·q + 1 … 32·q + j`. At a half's last point the output block
  receives the same value.
-/
import proofs.«131742_j34213709479937_2_alg».proof.Proof.Pieces

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- One point's step of the accumulator: the stored value, from the point's three input blocks and the accumulator. -/
def step (c : Dev nD) (n : ℕ) (h : n < cfg0.N) (acc : Vec F S1x1x1 .f32) : Vec F S1x1x1 .f32 :=
  k0_pay2 (iblk m c 0 ⟨n, h⟩) (iblk m c 1 ⟨n, h⟩) (iblk m c 2 ⟨n, h⟩) acc

/-- A half's first point: the step applied to the zero block. -/
def reset (c : Dev nD) (n : ℕ) (h : n < cfg0.N) : Vec F S1x1x1 .f32 := step m c n h (k0_pay1 (F := F))

/-- What the accumulator holds after point `n`. -/
def accu (c : Dev nD) (n : ℕ) (h : n < cfg0.N) : Vec F S1x1x1 .f32 := (outsAt0 m c n h).2

theorem accu_reset (c : Dev nD) (n : ℕ) (h : n < cfg0.N) (h0 : n % 32 = 0) : accu m c n h = reset m c n h := by
  unfold accu
  have h1 : ¬(⟨n, h⟩ : Fin cfg0.N).val % 32 = 31 := by dsimp only; omega
  rw [outsAt0_A m c ⟨n, h⟩ h0 h1]
  dsimp only
  exact scratch_A (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

theorem accu_step (c : Dev nD) (n : ℕ) (h : n + 1 < cfg0.N) (hne : ¬(n + 1) % 32 = 0) :
    accu m c (n + 1) h = step m c (n + 1) h (accu m c n (Nat.lt_of_succ_lt h)) := by
  unfold accu
  by_cases h1 : (n + 1) % 32 = 31
  · rw [outsAt0_C m c ⟨n + 1, h⟩ hne h1]
    dsimp only
    exact scratch_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hne ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ hne h1]
    dsimp only
    exact scratch_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hne ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2

/-- After point `t` the accumulator is the fold over the points of `t`'s half up to `t`. -/
theorem accu_eq_fold (c : Dev nD) (t : ℕ) (ht : t < cfg0.N) (h' : 32 * (t / 32) + t % 32 < cfg0.N) :
    accu m c t ht = Pipeline.accAt (reset m c) (step m c) (32 * (t / 32)) (t % 32) h' :=
  Pipeline.eq_accAt_of_mod (accu m c) 32 (reset m c) (step m c) (accu_reset m c) (accu_step m c) (by decide) t ht h'

/-- At a half's last point the output block receives what the accumulator holds after the point. -/
theorem out_eq_accu (c : Dev nD) (t : Fin cfg0.N) (h1 : t.val % 32 = 31) :
    (outsAt0 m c t.val t.isLt).1 = accu m c t.val t.isLt := by
  unfold accu
  have h0 : ¬t.val % 32 = 0 := by omega
  rw [outsAt0_C m c t h0 h1]
  dsimp only
  exact (out_C (F := F) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2).trans
    (scratch_C (F := F) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2).symm

end Cert.KernelIdeal.Accum

end
-- ==== Proof.PairLoss.lean ====
/-
  The contrastive pair loss as one function of the argument arrays, over the extended reals.

  For a pair of rows `a`, `b` of width 4096 and a sign `s` the pair's term is
  `max (1 + s · tanh √(0 + Σ_d (a_d − b_d)²)) 0`; the sign of a pair is −1 when its label is 1 and +1 otherwise;
  the loss is `0 + Σ_r` of the terms of the 16384 pairs. The three float literals (+0.0, +1.0, −1.0) are kept as
  their words.
-/
import Idealize.ShloMosaic.PureOps.Ideal
import Idealize.ShloMosaic.Lib.ValueIdx

noncomputable section

namespace Cert.PairLoss

open Idealize.ShloMosaic Idealize.ShloMosaic.ValueIdx

/-- The word of +0.0 as an extended real. -/
abbrev zero : EReal := Ideal.ofBits .f32 0x00000000#32
/-- The word of +1.0 as an extended real. -/
abbrev one : EReal := Ideal.ofBits .f32 0x3F800000#32
/-- The word of −1.0 as an extended real. -/
abbrev negOne : EReal := Ideal.ofBits .f32 0xBF800000#32

/-- The sign a label selects: −1 for the label 1, +1 for any other. -/
def sign (lab : BitVec 32) : EReal := Scalar.select (IntOp.cmpi .eq lab 1#32) negOne one

/-- One pair's term: `max (1 + s · tanh √(0 + Σ_d (a_d − b_d)²)) 0`. -/
def hinge (s : EReal) (a b : Fin 4096 → EReal) : EReal :=
  max (one + s * Ideal.tanh (Ideal.sqrt (zero + ∑ d : Fin 4096, (a d - b d) * (a d - b d)))) zero

/-- Pair `r`'s term, from the two arrays of rows and the labels. -/
def term (x0 x1 : (⟨2, ![16384, 4096]⟩ : Shape).Idx → EReal) (lab : (⟨1, ![16384]⟩ : Shape).Idx → BitVec 32)
    (r : Fin 16384) : EReal :=
  hinge (sign (lab (ix1 r))) (fun d => x0 (ix2 r d)) (fun d => x1 (ix2 r d))

/-- Pair `r`'s term for any natural `r` (zero past the last pair), so that sums over blocks of pairs need no bounds. -/
def termN (x0 x1 : (⟨2, ![16384, 4096]⟩ : Shape).Idx → EReal) (lab : (⟨1, ![16384]⟩ : Shape).Idx → BitVec 32)
    (r : ℕ) : EReal :=
  if h : r < 16384 then term x0 x1 lab ⟨r, h⟩ else 0

/-- The loss: zero plus the sum of the 16384 pairs' terms. -/
def loss (x0 x1 : (⟨2, ![16384, 4096]⟩ : Shape).Idx → EReal) (lab : (⟨1, ![16384]⟩ : Shape).Idx → BitVec 32) : EReal :=
  zero + ∑ r : Fin 16384, term x0 x1 lab r

end Cert.PairLoss

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.TileSum.lean ====
/-
  What one grid point adds to the running sum, read at an index over the extended reals.

  A grid point holds 256 pairs of rows. For each pair it forms the squared distance Σ_d (a_d − b_d)², takes the
  square root and the hyperbolic tangent, multiplies by the pair's sign, adds one and clips below at zero; the 256
  terms are summed and the sum is added to the running value. The first grid point of a half stores the word of
  +0.0 instead. Each step of that description is one vector operation read at an index.
-/
import proofs.«131742_j34213709479937_2_alg».proof.Proof.Gen.KernelIdeal.Skeleton
import proofs.«131742_j34213709479937_2_alg».proof.Proof.PairLoss
import proofs.«131742_j34213709479937_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileSum

open Cert.KernelIdeal Cert.KernelIdeal.Gen Idealize.ShloMosaic Idealize.ShloMosaic.ValueIdx

/-- Every index of the one-element block is (0, 0, 0). -/
theorem idx_eq (i : S1x1x1.Idx) : i = ix3 (0 : Fin 1) (0 : Fin 1) (0 : Fin 1) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- The block a half's first grid point stores is the word of +0.0 everywhere. -/
theorem reset_apply (i : S1x1x1.Idx) : k0_pay1 (F := Ideal) i = Cert.PairLoss.zero := by
  unfold k0_pay1
  rw [shapeCast_self]
  rfl

/-- The sum over the 4096 lanes of a row: the reduction over the second axis, read at row `p`. -/
theorem laneSum_apply (src : FVec Ideal S256x4096 .f32) (h : S256x4096.Reduces [1] S256) (hφ : FKind.Formats .f32)
    (hacc : (0x00000000#32 : BitVec 32) = FKind.add.neutral .f32 hφ) (p : Fin 256) :
    multiReduction .add [1] S256 src 0x00000000#32 h hφ hacc (ix1 p) = ∑ d : Fin 4096, src (ix2 p d) := by
  refine (Ideal.multiReduction_add_single src 0x00000000#32 h hφ hacc (ix1 p)).trans ?_
  show ∑ d : Fin 4096, src (h.lift (ix1 p) d) = _
  refine Finset.sum_congr rfl fun d _ => ?_
  exact congrArg src (funext fun a => Fin.ext (by match a with | ⟨0, _⟩ => rfl | ⟨1, _⟩ => rfl))

/-- The sum over the 256 rows of a column: the reduction over the first axis, read at its one index. -/
theorem rowSum_apply (src : FVec Ideal S256x1 .f32) (h : S256x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ p : Fin 256, src (ix2 p (0 : Fin 1)) := by
  refine (Ideal.multiReduction_add_single src 0x00000000#32 h hφ hacc (ix1 (0 : Fin 1))).trans ?_
  show ∑ p : Fin 256, src (h.lift (ix1 (0 : Fin 1)) p) = _
  refine Finset.sum_congr rfl fun p _ => ?_
  exact congrArg src (funext fun a => Fin.ext (by match a with | ⟨0, _⟩ => rfl | ⟨1, _⟩ => rfl))

/-- The word of +0.0 is the additive zero of the extended reals. -/
theorem zero_add_eq (b : EReal) : Cert.PairLoss.zero + b = b := by
  rw [show Cert.PairLoss.zero = 0 from Ideal.ofBits_zero_f32, zero_add]

/-- One pair's term as the grid point computes it, at row `p` of the column of terms: the pair's hinge term. -/
theorem rowTerm_apply (x0 x1 : Vec Ideal S256x4096 .f32) (x2 : Vec Ideal S256x1 .f32) (p : Fin 256) :
    maximumf (F := Ideal)
        (addf (broadcast S256x1 (Scalar.ofBits (F := Ideal) .f32 0x3F800000#32))
          (mulf (shapeCast S256x1 x2 shapeCasts_S256x1_S256x1)
            (tanh (sqrt (shapeCast S256x1
              (multiReduction (F := Ideal) .add [1] S256 (mulf (subf x0 x1) (subf x0 x1)) 0x00000000#32
                reduces_S256x4096_S256 (.inl rfl) rfl)
              shapeCasts_S256_S256x1)))))
        (broadcast S256x1 (Scalar.ofBits (F := Ideal) .f32 0x00000000#32)) (ix2 p (0 : Fin 1))
      = Cert.PairLoss.hinge (x2 (ix2 p (0 : Fin 1))) (fun d => x0 (ix2 p d)) (fun d => x1 (ix2 p d)) := by
  rw [maximumf_apply, addf_apply, mulf_apply, shapeCast_self]
  unfold Cert.PairLoss.hinge
  refine congrArg (fun t => max (Cert.PairLoss.one + x2 (ix2 p (0 : Fin 1)) * Ideal.tanh (Ideal.sqrt t)) Cert.PairLoss.zero)
    ((shapeCast_a_a1_apply _ _ p 0).trans ((laneSum_apply _ _ _ _ p).trans ?_))
  refine Eq.trans ?_ (zero_add_eq _).symm
  rfl

/-- What a grid point stores into the running value: the value it loaded plus zero plus the sum of its 256 pairs'
    terms. -/
theorem step_apply (x0 x1 : Vec Ideal S256x4096 .f32) (x2 : Vec Ideal S256x1 .f32) (acc : Vec Ideal S1x1x1 .f32)
    (i : S1x1x1.Idx) :
    k0_pay2 (F := Ideal) x0 x1 x2 acc i
      = acc i + (Cert.PairLoss.zero + ∑ j : Fin 256,
          Cert.PairLoss.hinge (x2 (ix2 j 0)) (fun d => x0 (ix2 j d)) (fun d => x1 (ix2 j d))) := by
  rw [idx_eq i]
  unfold k0_pay2
  rw [shapeCast_self, addf_apply, shapeCast_ab_1ab_apply, shapeCast_a_a1_apply]
  refine congrArg (acc _ + ·) ?_
  refine (rowSum_apply _ _ _ _).trans ?_
  refine Eq.trans ?_ (zero_add_eq _).symm
  exact Finset.sum_congr rfl fun p _ => rowTerm_apply x0 x1 x2 p

end Cert.KernelIdeal.TileSum

end
-- ==== Proof.Blocks.lean ====
/-
  What the kernel's three input windows hold at a grid point, read at an index.

  The grid has 64 points; at point t the first two windows hold rows 256·t … 256·t + 255 of the two argument arrays
  (every column), and the third holds the same rows of the sign column. The sign column is computed before the kernel
  from the labels: entry r is −1 when label r equals 1 and +1 otherwise, kept as a 16384 × 1 column.

  A window's block index at point t is (t, 0) on all three windows (decided once over the 64 points), and an element
  (j, d) of a block sits in its array at (block index · block size + (j, d)), that is at (256·t + j, d).
-/
import proofs.«131742_j34213709479937_2_alg».proof.Proof.Gen.KernelIdeal.Frame.Runs
import proofs.«131742_j34213709479937_2_alg».proof.Proof.PairLoss
import proofs.«131742_j34213709479937_2_alg».proof.Proof.LibColumnLayout
import Idealize.ShloMosaic.Lib.ValueIdx
import Idealize.ShloMosaic.Lib.Pipeline.Value
import Idealize.ShloMosaic.Lib.StableHlo.Run
import Idealize.ShloMosaic.Lib.IdealHost

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The sign column -/

/-- The sign column as one term of the labels: the labels compared with the constant 1, the comparison selecting
    between the constants −1.0 and +1.0 (each a scalar broadcast over the 16384 entries), the result kept as a
    16384 × 1 column. -/
theorem host_term (c : Dev nD) :
    (V (F := Ideal) m c main_v4 : S16384x1.Idx → EReal)
      = shapeCast S16384x1 (id (select (cmpi .eq (m ((c : Thread nD τ).loc main_arg2)) (broadcastInDim S16384 ![] bcast_S_S16384 (constantI S_ 32 1#32)))
          (broadcastInDim S16384 ![] bcast_S_S16384 (constant (F := Ideal) S_ .f32 0xBF800000#32))
          (broadcastInDim S16384 ![] bcast_S_S16384 (constant (F := Ideal) S_ .f32 0x3F800000#32)))) shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

/-- the sign column the host computes before the kernel: row r holds the sign of label r -/
theorem sign_column (c : Dev nD) (r : Fin 16384) :
    (V (F := Ideal) m c main_v4 : S16384x1.Idx → EReal) (ix2 r 0) = Cert.PairLoss.sign (m ((c : Thread nD τ).loc main_arg2) (ix1 r)) := by
  -- the column at (r, 0) is the vector at r; there the select reads the comparison of label r with 1 and the two
  -- broadcast constants read their scalars
  rw [host_term, shapeCast_a_a1_apply]
  show select _ _ _ (ix1 r) = _
  rw [select_apply, broadcastInDim_scalar_apply, broadcastInDim_scalar_apply]
  unfold Cert.PairLoss.sign
  rfl

/-! ## The block indices, over the 64 points -/

/-- Window 0's block index at point t is (t, 0). -/
theorem idx_facts0 : ∀ t : Fin cfg0.N, win0_0.index t (0 : Fin 2) = t.val ∧ win0_0.index t (1 : Fin 2) = 0 :=
  (by decide +kernel : ∀ t : Fin grid0.N, _)
/-- Window 1's block index at point t is (t, 0). -/
theorem idx_facts1 : ∀ t : Fin cfg0.N, win0_1.index t (0 : Fin 2) = t.val ∧ win0_1.index t (1 : Fin 2) = 0 :=
  (by decide +kernel : ∀ t : Fin grid0.N, _)
/-- Window 2's block index at point t is (t, 0). -/
theorem idx_facts2 : ∀ t : Fin cfg0.N, win0_2.index t (0 : Fin 2) = t.val ∧ win0_2.index t (1 : Fin 2) = 0 :=
  (by decide +kernel : ∀ t : Fin grid0.N, _)

/-! ## The three windows' blocks -/

/-- Window 0 at point t, entry (j, d): row 256·t + j, column d of the first argument array. -/
theorem rows0 (c : Dev nD) (t : Fin cfg0.N) (j : Fin 256) (d : Fin 4096) (h : 256 * t.val + j.val < 16384) :
    (iblk (F := Ideal) m c 0 t : Vec Ideal S256x4096 .f32) (ix2 j d) = m ((c : Thread nD τ).loc main_arg0) (ix2 ⟨256 * t.val + j.val, h⟩ d) := by
  have hi := idx_facts0 t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * j.val = 256 * t.val + j.val; rw [hi.1]; omega
  | ⟨1, _⟩ => show win0_0.index t 1 * 4096 + 1 * d.val = d.val; rw [hi.2]; omega

/-- Window 1 at point t, entry (j, d): row 256·t + j, column d of the second argument array. -/
theorem rows1 (c : Dev nD) (t : Fin cfg0.N) (j : Fin 256) (d : Fin 4096) (h : 256 * t.val + j.val < 16384) :
    (iblk (F := Ideal) m c 1 t : Vec Ideal S256x4096 .f32) (ix2 j d) = m ((c : Thread nD τ).loc main_arg1) (ix2 ⟨256 * t.val + j.val, h⟩ d) := by
  have hi := idx_facts1 t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * j.val = 256 * t.val + j.val; rw [hi.1]; omega
  | ⟨1, _⟩ => show win0_1.index t 1 * 4096 + 1 * d.val = d.val; rw [hi.2]; omega

/-- Window 2 at point t, entry (j, 0): the sign of label 256·t + j. -/
theorem signs (c : Dev nD) (t : Fin cfg0.N) (j : Fin 256) (h : 256 * t.val + j.val < 16384) :
    (iblk (F := Ideal) m c 2 t : Vec Ideal S256x1 .f32) (ix2 j 0) = Cert.PairLoss.sign (m ((c : Thread nD τ).loc main_arg2) (ix1 ⟨256 * t.val + j.val, h⟩)) := by
  have hi := idx_facts2 t
  refine Eq.trans ?_ (sign_column m c ⟨256 * t.val + j.val, h⟩)
  unfold iblk
  rw [View.read_apply]
  show (V (F := Ideal) m c main_v4 : S16384x1.Idx → EReal) _ = (V (F := Ideal) m c main_v4 : S16384x1.Idx → EReal) _
  refine congrArg (V (F := Ideal) m c main_v4 : S16384x1.Idx → EReal) (funext fun a => Fin.ext ?_)
  match a with
  | ⟨0, _⟩ => show win0_2.index t 0 * 256 + 1 * j.val = 256 * t.val + j.val; rw [hi.1]; omega
  | ⟨1, _⟩ => show win0_2.index t 1 * 1 + 1 * 0 = 0; rw [hi.2]

end Cert.KernelIdeal.Blocks

end
-- ==== Proof.PairLossLaws.lean ====
/-
  Laws of the pair loss over the extended reals.

  The three float words are the numbers 0, 1 and −1; choosing between −t and t by a bit is multiplying t by the
  chosen sign; a sum over a·b naturals is the sum over a blocks of b; and the order in which the pairs' terms are
  summed tile by tile (two halves, 32 tiles a half, 256 pairs a tile, a zero word in front of every partial sum)
  gives the same total as the one sum over all 16384 pairs, because addition on the extended reals is commutative
  and associative and the zero word is the number 0.
-/
import proofs.«131742_j34213709479937_2_alg».proof.Proof.PairLoss
import Idealize.ShloMosaic.PureOps.Ideal.Laws
import Idealize.ShloMosaic.Lib.IdealHost

noncomputable section

namespace Cert.PairLoss

open Idealize.ShloMosaic Idealize.ShloMosaic.ValueIdx

/-- The word of +0.0 is the number 0. -/
theorem zero_eq : zero = 0 := Ideal.ofBits_zero_f32

/-- The word of +1.0 is the number 1. -/
theorem one_eq : one = 1 := Ideal.ofBits_one_f32

/-- The word of −1.0 is the number −1. -/
theorem negOne_eq : negOne = -1 := by
  have h : Ideal.ofBits .f32 0xBF800000#32 = ((-(1 : ℝ)) : EReal) := by
    simp [Ideal.ofBits, Ideal.ieee, -EReal.coe_mul, -EReal.coe_neg]; norm_num
  show Ideal.ofBits .f32 0xBF800000#32 = -1
  rw [h, EReal.coe_one]

/-- Choosing between −t and t by a bit is multiplying t by the chosen sign. -/
theorem select_neg (b : BitVec 1) (t : EReal) :
    Scalar.select b (-t) t = Scalar.select b negOne one * t := by
  rcases BitVec.eq_zero_or_eq_one b with h | h
  · subst h
    rw [select_zero, select_zero, one_eq, one_mul]
  · subst h
    rw [select_one, select_one, negOne_eq, neg_one_mul]

/-- A sum over a·b naturals taken in a blocks of b. -/
theorem sum_range_mul (f : ℕ → EReal) (a b : ℕ) :
    ∑ i ∈ Finset.range (a * b), f i = ∑ q ∈ Finset.range a, ∑ s ∈ Finset.range b, f (b * q + s) := by
  induction a with
  | zero => simp
  | succ n ih =>
    rw [Nat.succ_mul, Finset.sum_range_add, ih, Finset.sum_range_succ, Nat.mul_comm n b]

/-- The tile-by-tile order of summation: two halves, 32 tiles a half, 256 pairs a tile, a zero word in front of
    every sum, against the one sum over all pairs. -/
theorem blocks_total (f : ℕ → EReal) :
    zero + ∑ q : Fin 2, (zero + ∑ s ∈ Finset.range 32, (zero + ∑ j : Fin 256, f (256 * (32 * q.val + s) + j.val)))
      = zero + ∑ r : Fin 16384, f r.val := by
  have hL : ∀ q s : ℕ, (∑ j : Fin 256, f (256 * (32 * q + s) + j.val))
      = ∑ j ∈ Finset.range 256, f (256 * (32 * q + s) + j) :=
    fun q s => Fin.sum_univ_eq_sum_range (fun j => f (256 * (32 * q + s) + j)) 256
  have hQ : (∑ q : Fin 2, ∑ s ∈ Finset.range 32, ∑ j ∈ Finset.range 256, f (256 * (32 * q.val + s) + j))
      = ∑ q ∈ Finset.range 2, ∑ s ∈ Finset.range 32, ∑ j ∈ Finset.range 256, f (256 * (32 * q + s) + j) :=
    Fin.sum_univ_eq_sum_range
      (fun q => ∑ s ∈ Finset.range 32, ∑ j ∈ Finset.range 256, f (256 * (32 * q + s) + j)) 2
  have hR : ∑ r : Fin 16384, f r.val = ∑ r ∈ Finset.range 16384, f r := Fin.sum_univ_eq_sum_range f 16384
  simp only [zero_eq, zero_add, hL]
  rw [hQ, hR, show (16384 : ℕ) = 2 * 32 * 256 from rfl, sum_range_mul f (2 * 32) 256,
    sum_range_mul (fun q => ∑ s ∈ Finset.range 256, f (256 * q + s)) 2 32]

/-- Below 16384 the term for a natural is the pair's term. -/
theorem termN_val (x0 x1 : (⟨2, ![16384, 4096]⟩ : Shape).Idx → EReal)
    (lab : (⟨1, ![16384]⟩ : Shape).Idx → BitVec 32) (r : Fin 16384) :
    termN x0 x1 lab r.val = term x0 x1 lab r := by
  unfold termN
  rw [dif_pos r.isLt]

end Cert.PairLoss

end
-- ==== Proof.HalvesSum.lean ====
/-
  The sum over the index set of a 2×1×1 array is the sum over its two halves.

  An index of a 2×1×1 array is determined by its first coordinate, the other two being the one element of a
  one-element range; so the index set is in bijection with the two values of the first coordinate, and a sum over
  it is the sum over those two values.
-/
import Idealize.ShloMosaic.Lib.ValueIdx

noncomputable section

namespace Cert.PairLoss.Halves

open Idealize.ShloMosaic Idealize.ShloMosaic.ValueIdx

/-- The index set of a 2×1×1 array is the range of its first coordinate … -/
def idxEquivHalves : (⟨3, ![2, 1, 1]⟩ : Shape).Idx ≃ Fin 2 where
  toFun j := j 0
  invFun q := ix3 q (0 : Fin 1) (0 : Fin 1)
  left_inv j := by
    funext a
    match a with
    | ⟨0, _⟩ => rfl
    | ⟨1, _⟩ => exact Subsingleton.elim (α := Fin 1) _ _
    | ⟨2, _⟩ => exact Subsingleton.elim (α := Fin 1) _ _
  right_inv _ := rfl

/-- … so a sum over it is the sum over the two halves. -/
theorem sum_halves {M : Type*} [AddCommMonoid M] (f : (⟨3, ![2, 1, 1]⟩ : Shape).Idx → M) :
    ∑ j, f j = ∑ q : Fin 2, f (ix3 q (0 : Fin 1) (0 : Fin 1)) := by
  rw [← Equiv.sum_comp idxEquivHalves.symm f]
  rfl

end Cert.PairLoss.Halves

end
-- ==== Proof.KernelValue.lean ====
/-
  What the kernel's program computes, over the extended reals: the loss.

  After grid point `t` the accumulator holds the zero word plus the sums of the tiles of `t`'s half up to `t`; a
  tile's sum is the zero word plus the terms of its 256 pairs (rows `256·t … 256·t + 255`). At the last point of
  half `q` the output block `q` of the 2×1×1 array receives the accumulator, so entry `q` of that array ends at
  the zero word plus the sums of tiles `32·q … 32·q + 31`. The host's final reduction adds the two entries to the
  zero word. Regrouping the sum of all terms tile by tile and half by half gives the loss.
-/
import proofs.«131742_j34213709479937_2_alg».proof.Proof.Accum
import proofs.«131742_j34213709479937_2_alg».proof.Proof.TileSum
import proofs.«131742_j34213709479937_2_alg».proof.Proof.Blocks
import proofs.«131742_j34213709479937_2_alg».proof.Proof.PairLossLaws
import proofs.«131742_j34213709479937_2_alg».proof.Proof.HalvesSum
import Idealize.ShloMosaic.PureOps.Ideal.Laws
import Idealize.ShloMosaic.Lib.StableHlo.Run

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Accum Idealize.ShloMosaic.ValueIdx

variable (m : (ℓ : Loc nD τ sig) → Buf (Elt Ideal) ℓ) (ρ : Dev nD → PrngReg)

/-- Tile `n`'s sum: the zero word plus the terms of pairs `256·n … 256·n + 255`. -/
def tile (c : Dev nD) (n : ℕ) : EReal :=
  Cert.PairLoss.zero + ∑ j : Fin 256, Cert.PairLoss.termN (m ((c : Thread nD τ).loc main_arg0)) (m ((c : Thread nD τ).loc main_arg1))
    (m ((c : Thread nD τ).loc main_arg2)) (256 * n + j.val)

/-- A point's step adds its tile's sum to the accumulator. -/
theorem step_apply (c : Dev nD) (n : ℕ) (h : n < cfg0.N) (acc : Vec Ideal S1x1x1 .f32) (i : S1x1x1.Idx) :
    step m c n h acc i = acc i + tile m c n := by
  have hN : cfg0.N = 64 := N_0
  unfold step tile
  refine (TileSum.step_apply (iblk m c 0 ⟨n, h⟩) (iblk m c 1 ⟨n, h⟩) (iblk m c 2 ⟨n, h⟩) acc i).trans ?_
  refine congrArg (fun s => acc i + (Cert.PairLoss.zero + s)) (Finset.sum_congr rfl fun j _ => ?_)
  have hb : 256 * n + j.val < 16384 := by have := j.isLt; omega
  rw [Cert.PairLoss.termN, dif_pos hb, Cert.PairLoss.term]
  exact congr (congr (congrArg Cert.PairLoss.hinge (Blocks.signs m c ⟨n, h⟩ j hb))
    (funext fun d => Blocks.rows0 m c ⟨n, h⟩ j d hb)) (funext fun d => Blocks.rows1 m c ⟨n, h⟩ j d hb)

/-- A half's first point leaves the zero word plus its tile's sum. -/
theorem reset_apply (c : Dev nD) (n : ℕ) (h : n < cfg0.N) (i : S1x1x1.Idx) :
    reset m c n h i = Cert.PairLoss.zero + tile m c n := by
  unfold reset
  rw [step_apply, TileSum.reset_apply]

/-- After point `t` the accumulator holds the zero word plus the sums of the tiles of `t`'s half up to `t`. -/
theorem accu_apply (c : Dev nD) (t : ℕ) (ht : t < cfg0.N) (i : S1x1x1.Idx) :
    accu m c t ht i = Cert.PairLoss.zero + ∑ s ∈ Finset.range (t % 32 + 1), tile m c (32 * (t / 32) + s) := by
  have hN : cfg0.N = 64 := N_0
  have h' : 32 * (t / 32) + t % 32 < cfg0.N := by rw [Nat.div_add_mod]; exact ht
  rw [accu_eq_fold m c t ht h']
  exact Pipeline.accAt_add_apply (reset m c) (step m c) (fun _ => Cert.PairLoss.zero) (fun n _ => tile m c n) (32 * (t / 32)) 31
    (fun h i => reset_apply m c _ h i) (fun n h acc i _ _ => step_apply m c n h acc i) (t % 32)
    (by have := Nat.mod_lt t (show 0 < 32 by decide); omega) h' i

/-- What the 2×1×1 array ends holding: entry `q` is the zero word plus the sums of tiles `32·q … 32·q + 31`. -/
def halves (c : Dev nD) : S2x1x1.Idx → EReal :=
  fun i => Cert.PairLoss.zero + ∑ s ∈ Finset.range 32, tile m c (32 * (i 0).val + s)

/-- The output window's block index at point `t` is `(t / 32, 0, 0)`. -/
theorem idx_facts3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- What a half's last point writes back is its block of `halves`. -/
theorem flushed_eq (c : Dev nD) (t : Fin cfg0.N) (hf : (cfg0.win 3).flush t = true) :
    (dats m 0 c).flushed 3 t = ((cfg0.win 3).blk t).view.read (Elt Ideal) (halves m c) := by
  have h31 : t.val % 32 = 31 := (flush0_3 t).mp hf
  show (cfg0.win 3).cut (grid0.coords t) ((dats m 0 c).after 3 t) = _
  rw [after0_3, out_eq_accu m c t h31]
  funext y
  rw [View.read_apply]
  show accu m c t.val t.isLt y = halves m c (((cfg0.win 3).blk t).view.emb y)
  rw [accu_apply m c t.val t.isLt y, h31]
  unfold halves
  have e0 : ((((cfg0.win 3).blk t).view.emb y) 0).val = t.val / 32 := by
    show win0_3.index t (0 : Fin 3) * 1 + 1 * (y 0).val = t.val / 32
    have hy : (y 0).val < 1 := (y 0).isLt
    rw [(idx_facts3 t).1]; omega
  rw [e0]

/-- The two blocks cover the array, so it ends holding `halves`. -/
theorem final (c : Dev nD) : (dats m 0 c).arrAt 3 cfg0.N = halves m c :=
  (dats m 0 c).arrAt_eq_of_cover 3 (halves m c) (flushed_eq m c) fun i => by
    have hN : cfg0.N = 64 := N_0
    have hi0 : (i 0 : Nat) < 2 := (i 0).isLt
    have hi1 : (i 1 : Nat) < 1 := (i 1).isLt
    have hi2 : (i 2 : Nat) < 1 := (i 2).isLt
    have hlt : 32 * (i 0 : Nat) + 31 < cfg0.N := by omega
    obtain ⟨e0, e1, e2⟩ := idx_facts3 ⟨32 * (i 0 : Nat) + 31, hlt⟩
    refine ⟨⟨32 * (i 0 : Nat) + 31, hlt⟩, (flush0_3 _).mpr (by show (32 * (i 0 : Nat) + 31) % 32 = 31; omega), ?_⟩
    show i ∈ ((View.whole main_v5).slice (win0_3.rect ⟨32 * (i 0 : Nat) + 31, hlt⟩)).set
    rw [View.set_slice_whole, Rect.mem_set_unit]
    intro a
    match a with
    | ⟨0, _⟩ =>
      show win0_3.index ⟨32 * (i 0 : Nat) + 31, hlt⟩ (0 : Fin 3) * 1 ≤ (i 0 : Nat) ∧ (i 0 : Nat) < win0_3.index ⟨32 * (i 0 : Nat) + 31, hlt⟩ (0 : Fin 3) * 1 + 1
      rw [e0]; dsimp only; omega
    | ⟨1, _⟩ =>
      show win0_3.index ⟨32 * (i 0 : Nat) + 31, hlt⟩ (1 : Fin 3) * 1 ≤ (i 1 : Nat) ∧ (i 1 : Nat) < win0_3.index ⟨32 * (i 0 : Nat) + 31, hlt⟩ (1 : Fin 3) * 1 + 1
      rw [e1]; omega
    | ⟨2, _⟩ =>
      show win0_3.index ⟨32 * (i 0 : Nat) + 31, hlt⟩ (2 : Fin 3) * 1 ≤ (i 2 : Nat) ∧ (i 2 : Nat) < win0_3.index ⟨32 * (i 0 : Nat) + 31, hlt⟩ (2 : Fin 3) * 1 + 1
      rw [e2]; omega

/-- The host's final reduction adds the two entries of the array to the zero word. -/
theorem tail_eq (c : Dev nD) :
    Pipeline.afterTail₀ cfgs (dats m) 0 (V0 m) [hostOps1] c main_v6
      = fun _ => Cert.PairLoss.zero + ∑ j : S2x1x1.Idx, halves m c j := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = halves m c := (Pipeline.withArrays_arr spec0 launch0.win.arr_inj c _ _ 3).trans (final m c)
  rw [e]
  generalize halves m c = y
  funext i
  exact Ideal.hostReduceAdd_total reducesTo_S2x1x1_S_d0_1_2 (fun b => b.elim0) y _ i

/-- Regrouped pair by pair, that is the loss of the argument arrays. -/
theorem total_eq (c : Dev nD) :
    Cert.PairLoss.zero + ∑ j : S2x1x1.Idx, halves m c j
      = Cert.PairLoss.loss (m ((c : Thread nD τ).loc main_arg0)) (m ((c : Thread nD τ).loc main_arg1)) (m ((c : Thread nD τ).loc main_arg2)) := by
  rw [Cert.PairLoss.Halves.sum_halves]
  unfold halves tile Cert.PairLoss.loss
  refine (Cert.PairLoss.blocks_total (Cert.PairLoss.termN (m ((c : Thread nD τ).loc main_arg0)) (m ((c : Thread nD τ).loc main_arg1))
    (m ((c : Thread nD τ).loc main_arg2)))).trans ?_
  exact congrArg (Cert.PairLoss.zero + ·) (Finset.sum_congr rfl fun r _ => Cert.PairLoss.termN_val _ _ _ r)

/-- The kernel's program, run: it terminates with the loss of the argument arrays in its result, the arguments unchanged. -/
theorem run : θ_run defs (onTc (τ := τ) (main (F := Ideal))) ⟨m, fun _ => 0, ρ⟩ fun r => ∀ c : Dev nD,
      r.2.mem ((c : Thread nD τ).loc main_v6) = (fun _ => Cert.PairLoss.loss (m ((c : Thread nD τ).loc main_arg0))
        (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans
        ((tail_eq m c).trans (funext fun _ => total_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.RefSide.lean ====
/-
  The reference's result as one function of the argument arrays.

  The reference computes, for each of the 16384 pairs of rows, the sum over the 4096 columns of the squared
  differences, its square root, the hyperbolic tangent of that, chooses between the negated and the plain value by
  the bit "label = 1", adds one, takes the maximum with zero, and sums the 16384 results onto a zero word. Read at
  an index, operation by operation, this is the pair loss: the choice between −t and t is the product of t with the
  sign the label selects.
-/
import proofs.«131742_j34213709479937_2_alg».proof.Defs
import proofs.«131742_j34213709479937_2_alg».proof.Proof.Gen.ReferenceIdeal.Run
import proofs.«131742_j34213709479937_2_alg».proof.Proof.Gen.ReferenceIdeal.Read
import proofs.«131742_j34213709479937_2_alg».proof.Proof.PairLoss
import proofs.«131742_j34213709479937_2_alg».proof.Proof.PairLossLaws
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The element the inner sum of row `r` reads at column `k` is the element `(r, k)`. -/
theorem idx_v2 (r : Fin 16384) (k : Fin 4096) : idx_main_v2 (ix1 r) k = ix2 r k :=
  funext fun a => Fin.ext (by match a with | ⟨0, _⟩ => rfl | ⟨1, _⟩ => rfl)

/-- What the reference holds for pair `r` before its last sum is the pair's term: reading the operations at the
    index `r` gives `max (1 + select (label = 1) (−t) t) 0` with `t = tanh √(0 + Σ_k (a_k − b_k)²)`, and the
    choice between −t and t is the sign times t. -/
theorem term_eq (x0 x1 : (⟨S16384x4096, .f32⟩ : BufTy).Contents (Elt Ideal))
    (x2 : (⟨S16384, .i32⟩ : BufTy).Contents (Elt Ideal)) (r : Fin 16384) :
    val_main_v11 (F := Ideal) x0 x1 x2 (ix1 r) = Cert.PairLoss.term x0 x1 x2 r := by
  rw [val_main_v11_apply, val_main_v10_apply, val_main_v9_apply, val_main_cst_0_apply, val_main_v8_apply,
    val_main_v6_apply, val_main_v5_apply, val_main_c_apply, val_main_v7_apply, val_main_v4_apply,
    val_main_v3_apply, val_main_v2_apply, val_main_call1_v0_apply, val_main_call1_cst_apply, val_main_cst_apply]
  simp only [val_main_v1_apply, val_main_v0_apply, idx_v2, Ideal.addf_def, Ideal.subf_def, Ideal.mulf_def,
    Ideal.maximumf_def, Ideal.hostUnary_sqrt_def, Ideal.hostUnary_tanh_def, Ideal.hostNegf_def, Ideal.negf_def,
    Ideal.ofBits_def]
  rw [Cert.PairLoss.select_neg]
  -- both sides are now the same expression: the term, its hinge and its sign unfold to it
  rfl

/-- The reference's result is the pair loss: its last sum runs over the 16384 pairs, and each summand is the
    pair's term. -/
theorem result_eq (x0 x1 : (⟨S16384x4096, .f32⟩ : BufTy).Contents (Elt Ideal))
    (x2 : (⟨S16384, .i32⟩ : BufTy).Contents (Elt Ideal)) :
    val_main_v12 (F := Ideal) x0 x1 x2 = fun _ => Cert.PairLoss.loss x0 x1 x2 := by
  funext i
  rw [val_main_v12_apply, val_main_cst_1_apply, sum_idx1]
  unfold Cert.PairLoss.loss
  exact congrArg (_ + ·) (Finset.sum_congr rfl fun r _ => term_eq x0 x1 x2 r)

end Cert.RefSide

end
-- ==== Proof.lean ====
/-
  The certificate of the contrastive pair loss kernel against its reference, over the extended reals.

  For 16384 pairs of rows of width 4096 and a label per pair, a pair's term is
  `max (1 + s · tanh √(Σ_d (a_d − b_d)²)) 0` with the sign `s = −1` when the label is 1 and `+1` otherwise, and the
  loss is the sum of all terms. The reference computes it in one pass; the kernel walks 64 tiles of 256 pairs, two
  halves of 32 tiles, keeping a running sum per half, and adds the two halves at the end. Both results are the one
  function `PairLoss.loss` of the argument arrays: on the reference's side the choice between `−t` and `t` by the
  label is the product of `t` with the chosen sign, on the kernel's side the tile-by-tile sums regroup into the sum
  over all pairs because addition on the extended reals is commutative and associative and the zero word is 0. No
  law used needs the inputs to be finite.

  The frames of the two kernel programs are the generated frame certificates; the reference's frame is its generated
  run with the result dropped; the idealization rewrote nothing.
-/
import proofs.«131742_j34213709479937_2_alg».proof.Defs
import proofs.«131742_j34213709479937_2_alg».proof.Proof.Gen.Kernel
import proofs.«131742_j34213709479937_2_alg».proof.Proof.Gen.Kernel.Skeleton
import proofs.«131742_j34213709479937_2_alg».proof.Proof.Gen.Kernel.Launch
import proofs.«131742_j34213709479937_2_alg».proof.Proof.Gen.Kernel.Points
import proofs.«131742_j34213709479937_2_alg».proof.Proof.Gen.Kernel.Frame
import proofs.«131742_j34213709479937_2_alg».proof.Proof.Gen.KernelIdeal
import proofs.«131742_j34213709479937_2_alg».proof.Proof.Gen.KernelIdeal.Skeleton
import proofs.«131742_j34213709479937_2_alg».proof.Proof.Gen.KernelIdeal.Launch
import proofs.«131742_j34213709479937_2_alg».proof.Proof.Gen.KernelIdeal.Points
import proofs.«131742_j34213709479937_2_alg».proof.Proof.Gen.KernelIdeal.Frame
import proofs.«131742_j34213709479937_2_alg».proof.Proof.Gen.ReferenceIdeal
import proofs.«131742_j34213709479937_2_alg».proof.Proof.Gen.ReferenceIdeal.Run
import proofs.«131742_j34213709479937_2_alg».proof.Proof.Gen.ReferenceIdeal.Read
import proofs.«131742_j34213709479937_2_alg».proof.Proof.Gen.Pre_finite_inputs
import proofs.«131742_j34213709479937_2_alg».proof.Proof.KernelValue
import proofs.«131742_j34213709479937_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the argument arrays in their result. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RefSide.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
